-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S50000 : Shape := ⟨1, ![50000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩

abbrev nBuf : Space → Nat
  | .hbm => 121
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S128x256, .f32⟩
  | .hbm, ⟨11, _⟩ => ⟨S50000x256, .f32⟩
  | .hbm, ⟨12, _⟩ => ⟨S50000x128, .f32⟩
  | .hbm, ⟨13, _⟩ => ⟨S50000x128, .f32⟩
  | .hbm, ⟨14, _⟩ => ⟨S50000, .i32⟩
  | .hbm, ⟨15, _⟩ => ⟨S675000, .i32⟩
  | .hbm, ⟨16, _⟩ => ⟨S675000, .i32⟩
  | .hbm, ⟨17, _⟩ => ⟨S_, .f32⟩
  | .hbm, ⟨18, _⟩ => ⟨S675000, .f32⟩
  | .hbm, ⟨19, _⟩ => ⟨S_, .f32⟩
  | .hbm, ⟨20, _⟩ => ⟨S50000, .f32⟩
  | .hbm, ⟨21, _⟩ => ⟨S675000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S675000, .i32⟩
  | .hbm, ⟨33, _⟩ => ⟨S675000, .i1⟩
  | .hbm, ⟨34, _⟩ => ⟨S_, .i32⟩
  | .hbm, ⟨35, _⟩ => ⟨S675000, .i32⟩
  | .hbm, ⟨36, _⟩ => ⟨S675000, .i32⟩
  | .hbm, ⟨37, _⟩ => ⟨S675000, .i32⟩
  | .hbm, ⟨38, _⟩ => ⟨S675000x1, .i32⟩
  | .hbm, ⟨39, _⟩ => ⟨S675000, .f32⟩
  | .hbm, ⟨40, _⟩ => ⟨S_, .i32⟩
  | .hbm, ⟨41, _⟩ => ⟨S675000, .i32⟩
  | .hbm, ⟨42, _⟩ => ⟨S675000, .i1⟩
  | .hbm, ⟨43, _⟩ => ⟨S_, .i32⟩
  | .hbm, ⟨44, _⟩ => ⟨S675000, .i32⟩
  | .hbm, ⟨45, _⟩ => ⟨S675000, .i32⟩
  | .hbm, ⟨46, _⟩ => ⟨S675000, .i32⟩
  | .hbm, ⟨47, _⟩ => ⟨S675000x1, .i32⟩
  | .hbm, ⟨48, _⟩ => ⟨S675000, .f32⟩
  | .hbm, ⟨49, _⟩ => ⟨S675000, .f32⟩
  | .hbm, ⟨50, _⟩ => ⟨S_, .i32⟩
  | .hbm, ⟨51, _⟩ => ⟨S675000, .i32⟩
  | .hbm, ⟨52, _⟩ => ⟨S675000, .i1⟩
  | .hbm, ⟨53, _⟩ => ⟨S_, .i32⟩
  | .hbm, ⟨54, _⟩ => ⟨S675000, .i32⟩
  | .hbm, ⟨55, _⟩ => ⟨S675000, .i32⟩
  | .hbm, ⟨56, _⟩ => ⟨S675000, .i32⟩
  | .hbm, ⟨57, _⟩ => ⟨S675000x1, .i32⟩
  | .hbm, ⟨58, _⟩ => ⟨S675000x128, .f32⟩
  | .hbm, ⟨59, _⟩ => ⟨S675000x1, .f32⟩
  | .hbm, ⟨60, _⟩ => ⟨S675000x128, .f32⟩
  | .hbm, ⟨61, _⟩ => ⟨S675000x128, .f32⟩
  | .hbm, ⟨62, _⟩ => ⟨S_, .f32⟩
  | .hbm, ⟨63, _⟩ => ⟨S50000x128, .f32⟩
  | .hbm, ⟨64, _⟩ => ⟨S675000x1, .i32⟩
  | .hbm, ⟨65, _⟩ => ⟨S50000x128, .f32⟩
  | .hbm, ⟨66, _⟩ => ⟨S50000, .i32⟩
  | .hbm, ⟨67, _⟩ => ⟨S675000, .i32⟩
  | .hbm, ⟨68, _⟩ => ⟨S675000, .i32⟩
  | .hbm, ⟨69, _⟩ => ⟨S_, .f32⟩
  | .hbm, ⟨70, _⟩ => ⟨S675000, .f32⟩
  | .hbm, ⟨71, _⟩ => ⟨S_, .f32⟩
  | .hbm, ⟨72, _⟩ => ⟨S50000, .f32⟩
  | .hbm, ⟨73, _⟩ => ⟨S675000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S50000, .f32⟩
  | .hbm, ⟨79, _⟩ => ⟨S_, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S675000, .i32⟩
  | .hbm, ⟨85, _⟩ => ⟨S675000, .i1⟩
  | .hbm, ⟨86, _⟩ => ⟨S_, .i32⟩
  | .hbm, ⟨87, _⟩ => ⟨S675000, .i32⟩
  | .hbm, ⟨88, _⟩ => ⟨S675000, .i32⟩
  | .hbm, ⟨89, _⟩ => ⟨S675000, .i32⟩
  | .hbm, ⟨90, _⟩ => ⟨S675000x1, .i32⟩
  | .hbm, ⟨91, _⟩ => ⟨S675000, .f32⟩
  | .hbm, ⟨92, _⟩ => ⟨S_, .i32⟩
  | .hbm, ⟨93, _⟩ => ⟨S675000, .i32⟩
  | .hbm, ⟨94, _⟩ => ⟨S675000, .i1⟩
  | .hbm, ⟨95, _⟩ => ⟨S_, .i32⟩
  | .hbm, ⟨96, _⟩ => ⟨S675000, .i32⟩
  | .hbm, ⟨97, _⟩ => ⟨S675000, .i32⟩
  | .hbm, ⟨98, _⟩ => ⟨S675000, .i32⟩
  | .hbm, ⟨99, _⟩ => ⟨S675000x1, .i32⟩
  | .hbm, ⟨100, _⟩ => ⟨S675000, .f32⟩
  | .hbm, ⟨101, _⟩ => ⟨S675000, .f32⟩
  | .hbm, ⟨102, _⟩ => ⟨S_, .i32⟩
  | .hbm, ⟨103, _⟩ => ⟨S675000, .i32⟩
  | .hbm, ⟨104, _⟩ => ⟨S675000, .i1⟩
  | .hbm, ⟨105, _⟩ => ⟨S_, .i32⟩
  | .hbm, ⟨106, _⟩ => ⟨S675000, .i32⟩
  | .hbm, ⟨107, _⟩ => ⟨S675000, .i32⟩
  | .hbm, ⟨108, _⟩ => ⟨S675000, .i32⟩
  | .hbm, ⟨109, _⟩ => ⟨S675000x1, .i32⟩
  | .hbm, ⟨110, _⟩ => ⟨S675000x128, .f32⟩
  | .hbm, ⟨111, _⟩ => ⟨S675000x1, .f32⟩
  | .hbm, ⟨112, _⟩ => ⟨S675000x128, .f32⟩
  | .hbm, ⟨113, _⟩ => ⟨S675000x128, .f32⟩
  | .hbm, ⟨114, _⟩ => ⟨S_, .f32⟩
  | .hbm, ⟨115, _⟩ => ⟨S50000x128, .f32⟩
  | .hbm, ⟨116, _⟩ => ⟨S675000x1, .i32⟩
  | .hbm, ⟨117, _⟩ => ⟨S50000x128, .f32⟩
  | .hbm, ⟨118, _⟩ => ⟨S1x128, .f32⟩
  | .hbm, ⟨119, _⟩ => ⟨S1x128, .f32⟩
  | .hbm, ⟨120, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x256_S5000x256_1_0_0_1_n_n_wf : DotDims.WF S5000x128 S128x256 S5000x256 [1] [0] [0] [1] [] []
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v86) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v88) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S50000 : Shape := ⟨1, ![50000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S50000, .i32⟩
  | .hbm, ⟨11, _⟩ => ⟨S675000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S675000, .i32⟩
  | .hbm, ⟨29, _⟩ => ⟨S675000, .i1⟩
  | .hbm, ⟨30, _⟩ => ⟨S_, .i32⟩
  | .hbm, ⟨31, _⟩ => ⟨S675000, .i32⟩
  | .hbm, ⟨32, _⟩ => ⟨S675000, .i32⟩
  | .hbm, ⟨33, _⟩ => ⟨S675000, .i32⟩
  | .hbm, ⟨34, _⟩ => ⟨S675000x1, .i32⟩
  | .hbm, ⟨35, _⟩ => ⟨S675000, .f32⟩
  | .hbm, ⟨36, _⟩ => ⟨S_, .i32⟩
  | .hbm, ⟨37, _⟩ => ⟨S675000, .i32⟩
  | .hbm, ⟨38, _⟩ => ⟨S675000, .i1⟩
  | .hbm, ⟨39, _⟩ => ⟨S_, .i32⟩
  | .hbm, ⟨40, _⟩ => ⟨S675000, .i32⟩
  | .hbm, ⟨41, _⟩ => ⟨S675000, .i32⟩
  | .hbm, ⟨42, _⟩ => ⟨S675000, .i32⟩
  | .hbm, ⟨43, _⟩ => ⟨S675000x1, .i32⟩
  | .hbm, ⟨44, _⟩ => ⟨S675000, .f32⟩
  | .hbm, ⟨45, _⟩ => ⟨S675000, .f32⟩
  | .hbm, ⟨46, _⟩ => ⟨S50000x128, .f32⟩
  | .hbm, ⟨47, _⟩ => ⟨S_, .i32⟩
  | .hbm, ⟨48, _⟩ => ⟨S675000, .i32⟩
  | .hbm, ⟨49, _⟩ => ⟨S675000, .i1⟩
  | .hbm, ⟨50, _⟩ => ⟨S_, .i32⟩
  | .hbm, ⟨51, _⟩ => ⟨S675000, .i32⟩
  | .hbm, ⟨52, _⟩ => ⟨S675000, .i32⟩
  | .hbm, ⟨53, _⟩ => ⟨S675000, .i32⟩
  | .hbm, ⟨54, _⟩ => ⟨S675000x1, .i32⟩
  | .hbm, ⟨55, _⟩ => ⟨S675000x128, .f32⟩
  | .hbm, ⟨56, _⟩ => ⟨S675000x1, .f32⟩
  | .hbm, ⟨57, _⟩ => ⟨S675000x128, .f32⟩
  | .hbm, ⟨58, _⟩ => ⟨S675000x128, .f32⟩
  | .hbm, ⟨59, _⟩ => ⟨S_, .f32⟩
  | .hbm, ⟨60, _⟩ => ⟨S50000x128, .f32⟩
  | .hbm, ⟨61, _⟩ => ⟨S675000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000, .i32⟩
  | .hbm, ⟨67, _⟩ => ⟨S675000, .i32⟩
  | .hbm, ⟨68, _⟩ => ⟨S675000, .i32⟩
  | .hbm, ⟨69, _⟩ => ⟨S_, .f32⟩
  | .hbm, ⟨70, _⟩ => ⟨S675000, .f32⟩
  | .hbm, ⟨71, _⟩ => ⟨S_, .f32⟩
  | .hbm, ⟨72, _⟩ => ⟨S50000, .f32⟩
  | .hbm, ⟨73, _⟩ => ⟨S675000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S50000, .f32⟩
  | .hbm, ⟨79, _⟩ => ⟨S_, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S675000, .i32⟩
  | .hbm, ⟨85, _⟩ => ⟨S675000, .i1⟩
  | .hbm, ⟨86, _⟩ => ⟨S_, .i32⟩
  | .hbm, ⟨87, _⟩ => ⟨S675000, .i32⟩
  | .hbm, ⟨88, _⟩ => ⟨S675000, .i32⟩
  | .hbm, ⟨89, _⟩ => ⟨S675000, .i32⟩
  | .hbm, ⟨90, _⟩ => ⟨S675000x1, .i32⟩
  | .hbm, ⟨91, _⟩ => ⟨S675000, .f32⟩
  | .hbm, ⟨92, _⟩ => ⟨S_, .i32⟩
  | .hbm, ⟨93, _⟩ => ⟨S675000, .i32⟩
  | .hbm, ⟨94, _⟩ => ⟨S675000, .i1⟩
  | .hbm, ⟨95, _⟩ => ⟨S_, .i32⟩
  | .hbm, ⟨96, _⟩ => ⟨S675000, .i32⟩
  | .hbm, ⟨97, _⟩ => ⟨S675000, .i32⟩
  | .hbm, ⟨98, _⟩ => ⟨S675000, .i32⟩
  | .hbm, ⟨99, _⟩ => ⟨S675000x1, .i32⟩
  | .hbm, ⟨100, _⟩ => ⟨S675000, .f32⟩
  | .hbm, ⟨101, _⟩ => ⟨S675000, .f32⟩
  | .hbm, ⟨102, _⟩ => ⟨S50000x128, .f32⟩
  | .hbm, ⟨103, _⟩ => ⟨S_, .i32⟩
  | .hbm, ⟨104, _⟩ => ⟨S675000, .i32⟩
  | .hbm, ⟨105, _⟩ => ⟨S675000, .i1⟩
  | .hbm, ⟨106, _⟩ => ⟨S_, .i32⟩
  | .hbm, ⟨107, _⟩ => ⟨S675000, .i32⟩
  | .hbm, ⟨108, _⟩ => ⟨S675000, .i32⟩
  | .hbm, ⟨109, _⟩ => ⟨S675000, .i32⟩
  | .hbm, ⟨110, _⟩ => ⟨S675000x1, .i32⟩
  | .hbm, ⟨111, _⟩ => ⟨S675000x128, .f32⟩
  | .hbm, ⟨112, _⟩ => ⟨S675000x1, .f32⟩
  | .hbm, ⟨113, _⟩ => ⟨S675000x128, .f32⟩
  | .hbm, ⟨114, _⟩ => ⟨S675000x128, .f32⟩
  | .hbm, ⟨115, _⟩ => ⟨S_, .f32⟩
  | .hbm, ⟨116, _⟩ => ⟨S50000x128, .f32⟩
  | .hbm, ⟨117, _⟩ => ⟨S675000x1, .i32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | .hbm, ⟨122, _⟩ => ⟨S50000x128, .f32⟩
  | .hbm, ⟨123, _⟩ => ⟨S_, .f32⟩
  | .hbm, ⟨124, _⟩ => ⟨S50000x128, .f32⟩
  | .hbm, ⟨125, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call2_cst : Ref sig .tc := ⟨.hbm, 123, rfl⟩
abbrev main_call2_v0 : Ref sig .tc := ⟨.hbm, 124, rfl⟩
abbrev main_v91 : Ref sig .tc := ⟨.hbm, 125, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x128_S50000x128_1_0_0_1_n_n_wf : DotDims.WF S50000x128 S128x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf

class Facts : Prop extends Facts₀ where

variable [Facts]
-- ==== Proof.KernelRun.lean ====
/-
  The idealized kernel's run, with its result buffer kept.

  @main is eight segments — the host operations before the matmul call, the matmul call, five stretches of host operations
  (the two aggregations), the combine call. The generated frame module folds the device's buffer contents through them
  (`W0 … W8`: a stretch applies its operations in order, a call replaces each of its arrays by what its write-backs
  leave) and proves that every weakly fair execution ends with every unscoped buffer at the last fold `W8`. Its own
  theorem reads that post at the six arguments only; read at the result buffer `main_v88` as well, the same run says the
  result is `W8` there — the array the combine call's write-backs leave.
-/
import proofs.«137674_j90520730730511_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last fold's
    contents and the six arguments as launched. -/
theorem run_fold : θ_run defs (onTc (τ := τ) (main (F := F))) ⟨m, fun _ => 0, ρ⟩ (fun r => ∀ c : Dev nD,
      r.2.mem ((c.tc : Thread nD τ).loc main_v88) = W8 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v88 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Combine.lean ====
/-
  The combine call: what its output array holds after the run.

  The call walks ten grid points; at point `t` it fetches rows `5000 t … 5000 t + 4999` of the two aggregates `a` and `b`
  and the two one-row bias blocks, and writes back the same rows of the result, each entry
      max (((a + b_f) + b) + b_b) 0 ,
  the bias rows read at the entry's column. Every entry is a function of the operands at its own row and column, so the
  ten written blocks are the ten row blocks of ONE whole-array function `comb a b b_f b_b`; the blocks tile the array, and
  the array ends holding that function. Stated for any contents `V` the call finds in its operands' buffers.
-/
import proofs.«137674_j90520730730511_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Combine

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, as a constant function. -/
theorem zero_off : (![0, 0] : Fin 2 → Nat) = fun _ => 0 := funext fun a => by fin_cases a <;> rfl

/-- The one row of a `[1, 128]` block, at a column. -/
abbrev row (q : Fin 128) : S1x128.Idx := ix2 (0 : Fin 1) q

/-- The column of an index of a `[50000, 128]` array, as a number below 128. -/
abbrev col (i : S50000x128.Idx) : Fin 128 := ⟨(i 1).val, idx2_lt1 i⟩

/-- The combine step on whole arrays: at every entry, `max (((a + b_f) + b) + b_b) 0`, the biases read at the column. -/
def comb (a b : FVec Ideal S50000x128 .f32) (bf bb : FVec Ideal S1x128 .f32) : FVec Ideal S50000x128 .f32 :=
  fun i => max (((a i + bf (row (col i))) + b i) + bb (row (col i))) (Ideal.ofBits .f32 0x00000000#32)

/-- The body's stored value at row `p`, column `q` of the block: the same expression of the loaded blocks. -/
theorem pay_at (x0 x6 : Vec Ideal S5000x128 .f32) (x2 x9 : Vec Ideal S1x128 .f32) (p : Fin 5000) (q : Fin 128) :
    k1_pay1 (F := Ideal) x0 x2 x6 x9 (ix2 p q)
      = max (((x0 (ix2 p q) + x2 (row q)) + x6 (ix2 p q)) + x9 (row q)) (Ideal.ofBits .f32 0x00000000#32) := by
  unfold k1_pay1
  simp only [shapeCast_self]
  rw [maximumf_apply, addf_apply, addf_apply, addf_apply, broadcastTo_1b_ab_apply, broadcastTo_1b_ab_apply]
  rfl

/-- The index maps over the grid: the two aggregates' blocks move with the output's block, the bias blocks stay at the
    origin, and the output's block index is the grid point itself on the row axis and zero on the column axis. -/
theorem idx_facts : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- An array read through the output's block at point `t`, at a place of the block, is the array at that place's index. -/
theorem read_blk (G : FVec Ideal S50000x128 .f32) (t : Fin cfg1.N) (j : S5000x128.Idx) :
    ((cfg1.win 4).blk t).view.read (Elt Ideal) G j = G (((cfg1.win 4).blk t).view.emb j) := rfl

variable (V : (c : Dev nD) → (b : Ref sig .tc) → Buf (Elt Ideal) ((c : Thread nD τ).loc b))

/-- What grid point `t` writes back is block `t` of `comb` of the operand arrays as the call finds them. -/
theorem flushed_eq (c : Dev nD) (t : Fin cfg1.N) :
    (dat1 V c).flushed 4 t
      = ((cfg1.win 4).blk t).view.read (Elt Ideal) (comb (V c main_v46) (V c main_v85) (V c main_v86) (V c main_v87)) := by
  show (cfg1.win 4).cut (grid1.coords t) ((dat1 V c).after 4 t) = _
  rw [after1_4]
  unfold out1_4
  rw [View.canon_unit_zero zero_off]
  simp only [View.ld_unit_zero (S := S5000x128) zero_off, View.ld_unit_zero (S := S1x128) zero_off]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  refine (pay_at (iblk1 V c 0 t) (iblk1 V c 1 t) (iblk1 V c 2 t) (iblk1 V c 3 t) p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : ((cfg1.win 2).blk t).view.emb (row q) = row (col (((cfg1.win 4).blk t).view.emb (ix2 p q))) := by
    funext a; apply Fin.ext
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  have h3 : ((cfg1.win 3).blk t).view.emb (row q) = row (col (((cfg1.win 4).blk t).view.emb (ix2 p q))) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  have r0 : iblk1 V c 0 t (ix2 p q) = V c main_v46 (((cfg1.win 4).blk t).view.emb (ix2 p q)) := congrArg (V c main_v46) h0
  have r1 : iblk1 V c 1 t (ix2 p q) = V c main_v85 (((cfg1.win 4).blk t).view.emb (ix2 p q)) := congrArg (V c main_v85) h1
  have r2 : iblk1 V c 2 t (row q) = V c main_v86 (row (col (((cfg1.win 4).blk t).view.emb (ix2 p q)))) :=
    congrArg (V c main_v86) h2
  have r3 : iblk1 V c 3 t (row q) = V c main_v87 (row (col (((cfg1.win 4).blk t).view.emb (ix2 p q)))) :=
    congrArg (V c main_v87) h3
  rw [r0, r1, r2, r3]
  refine Eq.trans ?_ (read_blk (comb (V c main_v46) (V c main_v85) (V c main_v86) (V c main_v87)) t (ix2 p q)).symm
  unfold comb
  rfl

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v88).slice (win1_4.rect t)).set ↔ _
  rw [View.set_slice_whole, Rect.mem_set_unit]
  exact Iff.rfl

/-- Every block row of the array is some grid point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- The ten blocks tile the array: row `r` is in the block of point `r / 5000`. -/
theorem cover (i : S50000x128.Idx) : ∃ t : Fin cfg1.N, (cfg1.win 4).flush t = true ∧ i ∈ ((cfg1.win 4).blk t).view.set := by
  have hi0 : (i 0).val < 50000 := idx2_lt0 i
  have hi1 : (i 1).val < 128 := idx2_lt1 i
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the call's ten points: `comb` of the four operand arrays as the call found them. -/
theorem final (c : Dev nD) :
    (dat1 V c).arrAt 4 cfg1.N = comb (V c main_v46) (V c main_v85) (V c main_v86) (V c main_v87) :=
  (dat1 V c).arrAt_eq_of_cover 4 _ (fun t _ => flushed_eq V c t) cover

end Cert.KernelIdeal.Combine

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.Matmul.lean ====
/-
  The matmul call: what its output array holds after the run.

  The call walks ten grid points; at point `t` it fetches rows `5000 t … 5000 t + 4999` of the feature array `x`
  (`[50000, 128]`) and, once, the whole weight array `w` (`[128, 256]`), multiplies them into a zero accumulator and writes
  back the same rows of the `[50000, 256]` result. Read at the extended reals the change of format on the way into the
  product is the identity and the product into zero is the plain contraction sum, so the entry at `(r, q)` is
      ∑ k, x (r, k) · w (k, q) :
  it depends on row `r` of `x` only, the ten written blocks are the row blocks of ONE whole-array function `mm x w`, the
  blocks tile the array, and the array ends holding `mm x w`. Stated for any contents `V` the call finds in its operands.
-/
import proofs.«137674_j90520730730511_1_alg».proof.Proof.Gen.KernelIdeal.Frame
import proofs.«137674_j90520730730511_1_alg».proof.Proof.LibDotSum
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Matmul

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, as a constant function. -/
theorem zero_off : (![0, 0] : Fin 2 → Nat) = fun _ => 0 := funext fun a => by fin_cases a <;> rfl

/-- The row of an index of the `[50000, 256]` result, as a number below 50000. -/
abbrev rowN (i : S50000x256.Idx) : Fin 50000 := ⟨(i 0).val, idx2_lt0 i⟩

/-- Its column, as a number below 256. -/
abbrev colN (i : S50000x256.Idx) : Fin 256 := ⟨(i 1).val, idx2_lt1 i⟩

/-- The matrix product on whole arrays: the entry at `(r, q)` is `∑ k, x (r, k) · w (k, q)`. -/
def mm (x : FVec Ideal S50000x128 .f32) (w : FVec Ideal S128x256 .f32) : FVec Ideal S50000x256 .f32 :=
  fun i => ∑ k : Fin 128, x (ix2 (rowN i) k) * w (ix2 k (colN i))

/-- The body's stored value at row `p`, column `q` of the block: the contraction sum of the loaded blocks. -/
theorem pay_at (x0 : Vec Ideal S5000x128 .f32) (x2 : Vec Ideal S128x256 .f32) (p : Fin 5000) (q : Fin 256) :
    k0_pay1 (F := Ideal) x0 x2 (ix2 p q) = ∑ k : Fin 128, x0 (ix2 p k) * x2 (ix2 k q) := by
  unfold k0_pay1
  simp only [shapeCast_self, matmul]
  rw [Ideal.matmul_constant_zero_apply]
  exact Cert.LibDotSum.sum_contr_eq_sum_fin dot_S5000x128_S128x256_S5000x256_1_0_0_1_n_n rfl rfl
    (fun _ _ => rfl) (fun _ _ => rfl) (fun _ _ => rfl) (fun _ _ => rfl) _ _ (ix2 p q)

/-- The index maps over the grid: the feature block moves with the output's block, the weight block stays at the origin,
    and the output's block index is the grid point itself on the row axis and zero on the column axis. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An array read through the output's block at point `t`, at a place of the block, is the array at that place's index. -/
theorem read_blk (G : FVec Ideal S50000x256 .f32) (t : Fin cfg0.N) (j : S5000x256.Idx) :
    ((cfg0.win 2).blk t).view.read (Elt Ideal) G j = G (((cfg0.win 2).blk t).view.emb j) := rfl

variable (V : (c : Dev nD) → (b : Ref sig .tc) → Buf (Elt Ideal) ((c : Thread nD τ).loc b))

/-- What grid point `t` writes back is block `t` of `mm` of the operand arrays as the call finds them. -/
theorem flushed_eq (c : Dev nD) (t : Fin cfg0.N) :
    (dat0 V c).flushed 2 t = ((cfg0.win 2).blk t).view.read (Elt Ideal) (mm (V c main_arg0) (V c main_v4)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x256) zero_off]
  obtain ⟨e0, e1, e2, e3, e4, e5⟩ := idx_facts t
  funext j
  obtain ⟨p, q, rfl⟩ : ∃ (p : Fin 5000) (q : Fin 256), j = ix2 p q := ⟨j 0, j 1, eq_ix2 j⟩
  refine (pay_at (iblk0 V c 0 t) (iblk0 V c 1 t) p q).trans ?_
  refine Eq.trans ?_ (read_blk (mm (V c main_arg0) (V c main_v4)) t (ix2 p q)).symm
  unfold mm
  refine Finset.sum_congr rfl fun k _ => ?_
  have h0 : ((cfg0.win 0).blk t).view.emb (ix2 p k) = ix2 (rowN (((cfg0.win 2).blk t).view.emb (ix2 p q))) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k (colN (((cfg0.win 2).blk t).view.emb (ix2 p q))) := by
    funext a; apply Fin.ext
    match a with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega
  have r0 : iblk0 V c 0 t (ix2 p k) = V c main_arg0 (ix2 (rowN (((cfg0.win 2).blk t).view.emb (ix2 p q))) k) :=
    congrArg (V c main_arg0) h0
  have r1 : iblk0 V c 1 t (ix2 k q) = V c main_v4 (ix2 k (colN (((cfg0.win 2).blk t).view.emb (ix2 p q)))) :=
    congrArg (V c main_v4) h1
  rw [r0, r1]

/-- An index of the array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v5).slice (win0_2.rect t)).set ↔ _
  rw [View.set_slice_whole, Rect.mem_set_unit]
  exact Iff.rfl

/-- Every block row of the array is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The ten blocks tile the array: row `r` is in the block of point `r / 5000`. -/
theorem cover (i : S50000x256.Idx) : ∃ t : Fin cfg0.N, (cfg0.win 2).flush t = true ∧ i ∈ ((cfg0.win 2).blk t).view.set := by
  have hi0 : (i 0).val < 50000 := idx2_lt0 i
  have hi1 : (i 1).val < 256 := idx2_lt1 i
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the call's ten points: the product of the two operand arrays as the call found them. -/
theorem final (c : Dev nD) : (dat0 V c).arrAt 2 cfg0.N = mm (V c main_arg0) (V c main_v4) :=
  (dat0 V c).arrAt_eq_of_cover 2 _ (fun t _ => flushed_eq V c t) cover

end Cert.KernelIdeal.Matmul

end
-- ==== Proof.Spec.lean ====
/-
  The mathematics both programs compute, as stage functions of arrays.

  A graph has 50000 nodes and 625000 directed edges given as an edge list `e` (row 0 the sources, row 1 the
  targets); every node also gets a self-loop, so an edge-end list has 675000 entries (`withLoops`).
  For a choice of "gather end" `s` and "scatter end" `d` of every edge:
    * `deg d` is, per node, the number of edges whose scatter end is that node (a sum of ones scattered along `d`);
    * `dinv d` is `deg⁻¹ᐟ²` where the degree is positive and `0` elsewhere;
    * `edgeNorm s d` is, per edge, `dinv (s-end) · dinv (d-end)` (indices taken modulo the node count when negative:
      `wrapIdx`);
    * `gcnAgg h s d` scatters, along `d`, the rows of the feature array `h` gathered along `s` and scaled by the
      edge's norm, into a zero array: the normalised neighbourhood sum of `h`.
  The reference's result is `max (gcnAgg (x·W_f) src dst + b_f) + (gcnAgg (x·W_b) dst src + b_b)) 0` (`refOut`).
  Everything is stated over an arbitrary float instance `F`; the proof reads it at the extended reals.
-/
import proofs.«137674_j90520730730511_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- Row 0 of the edge list: every edge's source node. -/
def srcRow (e : IVec S2x625000 32) : IVec S625000 32 :=
  shapeCast _ (extractStridedSlice S1x625000 ![0, 0] e slices_S2x625000_S1x625000_0_0) shapeCasts_S1x625000_S625000

/-- Row 1 of the edge list: every edge's target node. -/
def dstRow (e : IVec S2x625000 32) : IVec S625000 32 :=
  shapeCast _ (extractStridedSlice S1x625000 ![1, 0] e slices_S2x625000_S1x625000_1_0) shapeCasts_S1x625000_S625000

/-- A list of edge ends followed by one self-loop end per node, `0, 1, …, 49999`. -/
def withLoops (v : IVec S625000 32) : IVec S675000 32 :=
  concatenate S675000 0 [⟨S625000, v⟩, ⟨S50000, (iotaInDim S50000 32 0)⟩] concatenates_S625000_S50000_S675000_d0

/-- An end list as a column of one-entry index vectors (what a scatter or a gather takes). -/
def colIdx (u : IVec S675000 32) : IVec S675000x1 32 :=
  broadcastInDim S675000x1 ![0] bcast_S675000_S675000x1_0 u

/-- The same with a negative node number `u` read as `u + 50000` first. -/
def wrapIdx (u : IVec S675000 32) : IVec S675000x1 32 :=
  broadcastInDim S675000x1 ![0] bcast_S675000_S675000x1_0
    (select (cmpi .slt u (broadcastInDim S675000 ![] bcast_S_S675000 (constantI S_ 32 0#32)))
      (addi u (broadcastInDim S675000 ![] bcast_S_S675000 (constantI S_ 32 50000#32))) u)

/-- Per node, the number of ends in `d` that are that node: ones scattered along `d` into zeros, summed. -/
def deg (d : IVec S675000 32) : FVec F S50000 .f32 :=
  Host.scatterAdd scatter_S50000_S675000x1_S675000_n_0_0_1
    (broadcastInDim S50000 ![] bcast_S_S50000 (constant S_ .f32 0x00000000#32)) (colIdx d)
    (broadcastInDim S675000 ![] bcast_S_S675000 (constant S_ .f32 0x3F800000#32))

/-- `deg⁻¹ᐟ²` where the degree is positive, zero elsewhere. -/
def dinv (d : IVec S675000 32) : FVec F S50000 .f32 :=
  select (cmpf (F := F) .ogt (deg d) (broadcastInDim S50000 ![] bcast_S_S50000 (constant S_ .f32 0x00000000#32)))
    (Host.rsqrt (deg d)) (broadcastInDim S50000 ![] bcast_S_S50000 (id (constant S_ .f32 0x00000000#32)))

/-- Per edge, the product of `dinv` at its two ends. -/
def edgeNorm (s d : IVec S675000 32) : FVec F S675000 .f32 :=
  mulf (Host.gather gather_S50000_S675000x1_S675000_n_0_n_n_0_1_1 (dinv d) (wrapIdx s))
    (Host.gather gather_S50000_S675000x1_S675000_n_0_n_n_0_1_1 (dinv d) (wrapIdx d))

/-- The normalised neighbourhood sum: row `s`-end of `h`, times the edge's norm, added into row `d`-end of a zero array. -/
def gcnAgg (h : FVec F S50000x128 .f32) (s d : IVec S675000 32) : FVec F S50000x128 .f32 :=
  Host.scatterAdd scatter_S50000x128_S675000x1_S675000x128_1_0_0_1
    (broadcastInDim S50000x128 ![] bcast_S_S50000x128 (constant S_ .f32 0x00000000#32)) (colIdx d)
    (mulf (Host.gather gather_S50000x128_S675000x1_S675000x128_1_0_n_n_0_1_1128 h (wrapIdx s))
      (broadcastInDim S675000x128 ![0, 1] bcast_S675000x1_S675000x128_0_1
        (broadcastInDim S675000x1 ![0] bcast_S675000_S675000x1_0 (edgeNorm s d))))

/-- A bias vector repeated on every row. -/
def biasRows (b : FVec F S128 .f32) : FVec F S50000x128 .f32 :=
  broadcastInDim S50000x128 ![0, 1] bcast_S1x128_S50000x128_0_1 (broadcastInDim S1x128 ![1] bcast_S128_S1x128_1 b)

/-- The forward aggregate of a feature array along the edge list: gather at the sources, scatter at the targets. -/
def aggFwd (h : FVec F S50000x128 .f32) (e : IVec S2x625000 32) : FVec F S50000x128 .f32 :=
  gcnAgg h (withLoops (srcRow e)) (withLoops (dstRow e))

/-- The backward aggregate: the same along the reversed edges. -/
def aggBwd (h : FVec F S50000x128 .f32) (e : IVec S2x625000 32) : FVec F S50000x128 .f32 :=
  gcnAgg h (withLoops (dstRow e)) (withLoops (srcRow e))

/-- The reference's result as a function of its six arguments. -/
def refOut (x : FVec F S50000x128 .f32) (e : IVec S2x625000 32) (wf : FVec F S128x128 .f32) (bf : FVec F S128 .f32)
    (wb : FVec F S128x128 .f32) (bb : FVec F S128 .f32) : FVec F S50000x128 .f32 :=
  maximumf
    (addf (addf (aggFwd (Host.dotGeneral dot_S50000x128_S128x128_S50000x128_1_0_0_1_n_n none x wf) e) (biasRows bf))
      (addf (aggBwd (Host.dotGeneral dot_S50000x128_S128x128_S50000x128_1_0_0_1_n_n none x wb) e) (biasRows bb)))
    (broadcastInDim S50000x128 ![] bcast_S_S50000x128 (constant S_ .f32 0x00000000#32))

end Cert.Spec

end
-- ==== Proof.HostFwd.lean ====
/-
  The host operations between the two calls, read at the combine call's first and third operands.

  From any buffer contents `V` at the matmul call's exit, the 108 operations between the calls leave
    * in the combine call's first operand the FORWARD aggregate: the specification's `gcnAgg` of the left half (columns
      0 … 127) of the matmul result, gathered at the edges' sources and scattered at their targets (self-loops added);
    * in its third operand the first bias vector as a one-row block.
  The operations are those of the specification's stage functions, in the same order, so after each operation's result is
  read at its own buffer the two sides are the same term.
-/
import proofs.«137674_j90520730730511_1_alg».proof.Proof.Gen.KernelIdeal.Frame
import proofs.«137674_j90520730730511_1_alg».proof.Proof.Spec
import Idealize.ShloMosaic.Lib.StableHlo.Run

noncomputable section

namespace Cert.KernelIdeal.HostFwd

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 48000000 in
/-- The combine call's first operand: the forward aggregate of the matmul result's left half. -/
theorem read_v46 (V : Valuation τ sig (Elt F)) :
    after hostOps1_4 (after hostOps1_3 (after hostOps1_2 (after hostOps1_1 (after hostOps1 V)))) (Proc.devRef .tc main_v46)
      = Cert.Spec.gcnAgg (F := F)
          (extractStridedSlice S50000x128 ![0, 0] (V (Proc.devRef .tc main_v5)) slices_S50000x256_S50000x128_0_0)
          (Cert.Spec.withLoops (V (Proc.devRef .tc main_v1))) (Cert.Spec.withLoops (V (Proc.devRef .tc main_v3))) := by
  after_results_simp
  rfl

set_option maxRecDepth 8192 in
set_option maxHeartbeats 48000000 in
/-- The combine call's third operand: the first bias vector as a `[1, 128]` block. -/
theorem read_v86 (V : Valuation τ sig (Elt F)) :
    after hostOps1_4 (after hostOps1_3 (after hostOps1_2 (after hostOps1_1 (after hostOps1 V)))) (Proc.devRef .tc main_v86)
      = shapeCast S1x128 (V (Proc.devRef .tc main_arg3)) shapeCasts_S128_S1x128 := by
  after_results_simp
  rfl

end Cert.KernelIdeal.HostFwd

end
-- ==== Proof.HostBwd.lean ====
/-
  The host operations between the two calls, read at the combine call's second and fourth operands.

  From any buffer contents `V` at the matmul call's exit, the 108 operations between the calls leave
    * in the combine call's second operand the BACKWARD aggregate: the specification's `gcnAgg` of the right half (columns
      128 … 255) of the matmul result, gathered at the edges' targets and scattered at their sources (self-loops added);
    * in its fourth operand the second bias vector as a one-row block.
  The operations are those of the specification's stage functions, in the same order, so after each operation's result is
  read at its own buffer the two sides are the same term.
-/
import proofs.«137674_j90520730730511_1_alg».proof.Proof.Gen.KernelIdeal.Frame
import proofs.«137674_j90520730730511_1_alg».proof.Proof.Spec
import Idealize.ShloMosaic.Lib.StableHlo.Run

noncomputable section

namespace Cert.KernelIdeal.HostBwd

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 48000000 in
/-- The combine call's second operand: the backward aggregate of the matmul result's right half. -/
theorem read_v85 (V : Valuation τ sig (Elt F)) :
    after hostOps1_4 (after hostOps1_3 (after hostOps1_2 (after hostOps1_1 (after hostOps1 V)))) (Proc.devRef .tc main_v85)
      = Cert.Spec.gcnAgg (F := F)
          (extractStridedSlice S50000x128 ![0, 128] (V (Proc.devRef .tc main_v5)) slices_S50000x256_S50000x128_0_128)
          (Cert.Spec.withLoops (V (Proc.devRef .tc main_v3))) (Cert.Spec.withLoops (V (Proc.devRef .tc main_v1))) := by
  after_results_simp
  rfl

set_option maxRecDepth 8192 in
set_option maxHeartbeats 48000000 in
/-- The combine call's fourth operand: the second bias vector as a `[1, 128]` block. -/
theorem read_v87 (V : Valuation τ sig (Elt F)) :
    after hostOps1_4 (after hostOps1_3 (after hostOps1_2 (after hostOps1_1 (after hostOps1 V)))) (Proc.devRef .tc main_v87)
      = shapeCast S1x128 (V (Proc.devRef .tc main_arg5)) shapeCasts_S128_S1x128 := by
  after_results_simp
  rfl

end Cert.KernelIdeal.HostBwd

end
-- ==== Proof.KernelValue.lean ====
/-
  The idealized kernel's result as a function of its six arguments.

  Walking the fold of buffer contents back from the result buffer:
    * the result is what the combine call's write-backs leave: `comb` of its four operands at the call's entry;
    * those operands are what the 108 host operations between the calls leave: the forward and the backward aggregate of
      the two halves of the matmul call's result, and the two bias vectors as one-row blocks;
    * the matmul call's result is what its write-backs leave: the product of `x` with the operand the first five host
      operations wrote, the two weight arrays side by side; the same five operations split the edge list into its two rows.
  Composed: the result is `comb (aggFwd (x·[W_f|W_b])[:, :128] e) (aggBwd (x·[W_f|W_b])[:, 128:] e) b_f b_b`.
-/
import proofs.«137674_j90520730730511_1_alg».proof.Proof.KernelRun
import proofs.«137674_j90520730730511_1_alg».proof.Proof.Combine
import proofs.«137674_j90520730730511_1_alg».proof.Proof.Matmul
import proofs.«137674_j90520730730511_1_alg».proof.Proof.HostFwd
import proofs.«137674_j90520730730511_1_alg».proof.Proof.HostBwd
import proofs.«137674_j90520730730511_1_alg».proof.Proof.Spec
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The kernel's function of the launch memory's six argument arrays, on core `c`. -/
def kerOut (c : Dev nD) : FVec Ideal S50000x128 .f32 :=
  Cert.KernelIdeal.Combine.comb
    (Cert.Spec.aggFwd (F := Ideal)
      (extractStridedSlice S50000x128 ![0, 0]
        (Cert.KernelIdeal.Matmul.mm (m ((c.tc : Thread nD τ).loc main_arg0))
          (concatenate S128x256 1 [⟨S128x128, m ((c.tc : Thread nD τ).loc main_arg2)⟩,
            ⟨S128x128, m ((c.tc : Thread nD τ).loc main_arg4)⟩] concatenates_S128x128_S128x128_S128x256_d1))
        slices_S50000x256_S50000x128_0_0) (m ((c.tc : Thread nD τ).loc main_arg1)))
    (Cert.Spec.aggBwd (F := Ideal)
      (extractStridedSlice S50000x128 ![0, 128]
        (Cert.KernelIdeal.Matmul.mm (m ((c.tc : Thread nD τ).loc main_arg0))
          (concatenate S128x256 1 [⟨S128x128, m ((c.tc : Thread nD τ).loc main_arg2)⟩,
            ⟨S128x128, m ((c.tc : Thread nD τ).loc main_arg4)⟩] concatenates_S128x128_S128x128_S128x256_d1))
        slices_S50000x256_S50000x128_0_128) (m ((c.tc : Thread nD τ).loc main_arg1)))
    (shapeCast S1x128 (m ((c.tc : Thread nD τ).loc main_arg3)) shapeCasts_S128_S1x128)
    (shapeCast S1x128 (m ((c.tc : Thread nD τ).loc main_arg5)) shapeCasts_S128_S1x128)

/-! ## After the first five host operations -/

theorem W1_arg0 (c : Dev nD) : W1 m ρ c (Proc.devRef .tc main_arg0) = m ((c.tc : Thread nD τ).loc main_arg0) := by
  show StableHlo.after hostOps0 (W0 m ρ c) (Proc.devRef .tc main_arg0) = _
  after_results

theorem W1_arg3 (c : Dev nD) : W1 m ρ c (Proc.devRef .tc main_arg3) = m ((c.tc : Thread nD τ).loc main_arg3) := by
  show StableHlo.after hostOps0 (W0 m ρ c) (Proc.devRef .tc main_arg3) = _
  after_results

theorem W1_arg5 (c : Dev nD) : W1 m ρ c (Proc.devRef .tc main_arg5) = m ((c.tc : Thread nD τ).loc main_arg5) := by
  show StableHlo.after hostOps0 (W0 m ρ c) (Proc.devRef .tc main_arg5) = _
  after_results

/-- The edges' sources. -/
theorem W1_v1 (c : Dev nD) :
    W1 m ρ c (Proc.devRef .tc main_v1) = Cert.Spec.srcRow (m ((c.tc : Thread nD τ).loc main_arg1)) := by
  show StableHlo.after hostOps0 (W0 m ρ c) (Proc.devRef .tc main_v1) = _
  after_results
  rfl

/-- The edges' targets. -/
theorem W1_v3 (c : Dev nD) :
    W1 m ρ c (Proc.devRef .tc main_v3) = Cert.Spec.dstRow (m ((c.tc : Thread nD τ).loc main_arg1)) := by
  show StableHlo.after hostOps0 (W0 m ρ c) (Proc.devRef .tc main_v3) = _
  after_results
  rfl

/-- The two weight arrays side by side. -/
theorem W1_v4 (c : Dev nD) :
    W1 m ρ c (Proc.devRef .tc main_v4)
      = concatenate S128x256 1 [⟨S128x128, m ((c.tc : Thread nD τ).loc main_arg2)⟩,
          ⟨S128x128, m ((c.tc : Thread nD τ).loc main_arg4)⟩] concatenates_S128x128_S128x128_S128x256_d1 := by
  show StableHlo.after hostOps0 (W0 m ρ c) (Proc.devRef .tc main_v4) = _
  after_results

/-! ## After the matmul call -/

/-- The matmul call's result array: the product of `x` with the joined weights. -/
theorem W2_v5 (c : Dev nD) :
    W2 m ρ c (Proc.devRef .tc main_v5)
      = Cert.KernelIdeal.Matmul.mm (m ((c.tc : Thread nD τ).loc main_arg0))
          (concatenate S128x256 1 [⟨S128x128, m ((c.tc : Thread nD τ).loc main_arg2)⟩,
            ⟨S128x128, m ((c.tc : Thread nD τ).loc main_arg4)⟩] concatenates_S128x128_S128x128_S128x256_d1) := by
  refine (W2_arr m ρ c 2).trans ((Cert.KernelIdeal.Matmul.final (V1 m ρ) c).trans ?_)
  show Cert.KernelIdeal.Matmul.mm (W1 m ρ c (Proc.devRef .tc main_arg0)) (W1 m ρ c (Proc.devRef .tc main_v4)) = _
  rw [W1_arg0, W1_v4]

theorem W2_v1 (c : Dev nD) :
    W2 m ρ c (Proc.devRef .tc main_v1) = Cert.Spec.srcRow (m ((c.tc : Thread nD τ).loc main_arg1)) :=
  (W2_of_ne m ρ c main_v1 (by decide)).trans (W1_v1 m ρ c)

theorem W2_v3 (c : Dev nD) :
    W2 m ρ c (Proc.devRef .tc main_v3) = Cert.Spec.dstRow (m ((c.tc : Thread nD τ).loc main_arg1)) :=
  (W2_of_ne m ρ c main_v3 (by decide)).trans (W1_v3 m ρ c)

theorem W2_arg3 (c : Dev nD) : W2 m ρ c (Proc.devRef .tc main_arg3) = m ((c.tc : Thread nD τ).loc main_arg3) :=
  (W2_of_ne m ρ c main_arg3 (by decide)).trans (W1_arg3 m ρ c)

theorem W2_arg5 (c : Dev nD) : W2 m ρ c (Proc.devRef .tc main_arg5) = m ((c.tc : Thread nD τ).loc main_arg5) :=
  (W2_of_ne m ρ c main_arg5 (by decide)).trans (W1_arg5 m ρ c)

/-! ## At the combine call's entry, and after it -/

/-- The result buffer after the run is the kernel's function of the arguments. -/
theorem W8_v88 (c : Dev nD) : W8 m ρ c (Proc.devRef .tc main_v88) = kerOut m c := by
  refine (W8_arr m ρ c 4).trans ((Cert.KernelIdeal.Combine.final (V7 m ρ) c).trans ?_)
  show Cert.KernelIdeal.Combine.comb (W7 m ρ c (Proc.devRef .tc main_v46)) (W7 m ρ c (Proc.devRef .tc main_v85))
      (W7 m ρ c (Proc.devRef .tc main_v86)) (W7 m ρ c (Proc.devRef .tc main_v87)) = _
  rw [show W7 m ρ c (Proc.devRef .tc main_v46) = _ from Cert.KernelIdeal.HostFwd.read_v46 (W2 m ρ c),
    show W7 m ρ c (Proc.devRef .tc main_v85) = _ from Cert.KernelIdeal.HostBwd.read_v85 (W2 m ρ c),
    show W7 m ρ c (Proc.devRef .tc main_v86) = _ from Cert.KernelIdeal.HostFwd.read_v86 (W2 m ρ c),
    show W7 m ρ c (Proc.devRef .tc main_v87) = _ from Cert.KernelIdeal.HostBwd.read_v87 (W2 m ρ c),
    W2_v5, W2_v1, W2_v3, W2_arg3, W2_arg5]
  rfl

/-- THE KERNEL'S RUN: every weakly fair execution terminates, nothing faulting, with the result buffer at the kernel's
    function of the launch arguments and the arguments as launched. -/
theorem run : θ_run defs (onTc (τ := τ) (main (F := Ideal))) ⟨m, fun _ => 0, ρ⟩ (fun r => ∀ c : Dev nD,
      r.2.mem ((c.tc : Thread nD τ).loc main_v88) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W8_v88 m ρ c), (h c).2⟩)
    (Cert.KernelIdeal.RunValue.run_fold (F := Ideal) m ρ)

end Cert.KernelIdeal.KValue

end
-- ==== Proof.RefValue.lean ====
/-
  The reference's result is `Spec.refOut` of its arguments.

  The reference is host operations only; its run ends with the result buffer at the operations' composed term of the six
  argument arrays. That term is, stage by stage, the specification's: two aggregates of the two matrix products along the
  edge list and its reverse, each plus its bias row, their sum, and the maximum with zero. The stage functions unfold to the
  same operations in the same order, so the equation holds by unfolding.
-/
import proofs.«137674_j90520730730511_1_alg».proof.Proof.RefRunP
import proofs.«137674_j90520730730511_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The composed term of the reference's 120 operations is the specification's function of the arguments. -/
theorem res_eq (m : (ℓ : Loc nD τ sig) → Buf (Elt F) ℓ) (c : Dev nD) :
    ValueP.res_main_v91 (F := F) m c
      = Cert.Spec.refOut (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold ValueP.res_main_v91
  rfl

/-- The reference's run: the result at the specification's function of the launch arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
        = Cert.Spec.refOut (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res_eq m c), (h c).2⟩) (ValueP.run (F := F) m ρ)

end Cert.ReferenceIdeal.RefValue

end
-- ==== Proof.Bridge.lean ====
/-
  The kernel's function of the arguments is the reference's.

  Two facts about arrays of extended reals.
  (1) The fused product. With the two `[128, 128]` weight arrays set side by side into one `[128, 256]` array, the
      product `x · [W_f | W_b]` has, in its columns `0 … 127`, the product `x · W_f`, and in its columns `128 … 255` the
      product `x · W_b`: the entry at `(r, q)` is `∑ k, x (r, k) · [W_f | W_b] (k, q)`, and column `q` of the joined array
      is column `q` of `W_f` below 128 and column `q - 128` of `W_b` from 128 on. The host's `dot_general` at the extended
      reals is the same contraction sum.
  (2) The last step. The kernel adds in the order `((a + b_f) + b) + b_b`, the reference in the order
      `(a + b_f) + (b + b_b)`; addition of extended reals is associative (also at the infinities), so the two agree, and
      both then take the maximum with zero. A bias vector as a one-row block read at its row, and repeated over all rows read
      at a row, are both the vector at the column.
  Neither fact needs the inputs finite. The aggregates `aggFwd`, `aggBwd` are never opened: both sides apply the same ones.
-/
import proofs.«137674_j90520730730511_1_alg».proof.Proof.Spec
import proofs.«137674_j90520730730511_1_alg».proof.Proof.Combine
import proofs.«137674_j90520730730511_1_alg».proof.Proof.Matmul
import proofs.«137674_j90520730730511_1_alg».proof.Proof.LibDotSum
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.KernelIdeal Cert.KernelIdeal.Gen
open Idealize.ShloMosaic Idealize.ShloMosaic.ValueIdx

/-- The two weight arrays side by side. -/
abbrev catW (wf wb : FVec Ideal S128x128 .f32) : FVec Ideal S128x256 .f32 :=
  concatenate S128x256 1 [⟨S128x128, wf⟩, ⟨S128x128, wb⟩] concatenates_S128x128_S128x128_S128x256_d1

/-- A column below 128 of the joined weights is that column of the first array. -/
theorem catW_left (wf wb : FVec Ideal S128x128 .f32) (k : Fin 128) (q' : Fin 256) (q : Fin 128) (h : q'.val = q.val) :
    catW wf wb (ix2 k q') = wf (ix2 k q) :=
  concatenate_pair_apply_left (t := S128x256) (s₁ := S128x128) (s₂ := S128x128) (1 : Fin 2) wf wb
    concatenates_S128x128_S128x128_S128x256_d1 (ix2 k q') rfl (ix2 k q)
    (fun b => match b with
      | ⟨0, _⟩ => rfl
      | ⟨1, _⟩ => h.symm)

/-- A column from 128 on of the joined weights is the column 128 to the left of the second array. -/
theorem catW_right (wf wb : FVec Ideal S128x128 .f32) (k : Fin 128) (q' : Fin 256) (q : Fin 128) (h : q.val + 128 = q'.val) :
    catW wf wb (ix2 k q') = wb (ix2 k q) :=
  concatenate_pair_apply_right (t := S128x256) (s₁ := S128x128) (s₂ := S128x128) (1 : Fin 2) wf wb
    concatenates_S128x128_S128x128_S128x256_d1 (ix2 k q') rfl rfl (ix2 k q)
    (fun b hb => match b, hb with
      | ⟨0, _⟩, _ => rfl
      | ⟨1, _⟩, hb => absurd rfl hb)
    h

/-- The host's product at the extended reals, at an entry: the plain contraction sum. -/
theorem dot_at (x : FVec Ideal S50000x128 .f32) (w : FVec Ideal S128x128 .f32) (r : Fin 50000) (q : Fin 128) :
    Host.dotGeneral (F := Ideal) Cert.ReferenceIdeal.dot_S50000x128_S128x128_S50000x128_1_0_0_1_n_n none x w (ix2 r q)
      = ∑ k : Fin 128, x (ix2 r k) * w (ix2 k q) := by
  simp only [Host.dotGeneral]
  rw [Ideal.dotGeneral_apply]
  exact Cert.LibDotSum.sum_contr_eq_sum_fin Cert.ReferenceIdeal.dot_S50000x128_S128x128_S50000x128_1_0_0_1_n_n rfl rfl
    (fun _ _ => rfl) (fun _ _ => rfl) (fun _ _ => rfl) (fun _ _ => rfl) _ _ (ix2 r q)

/-- Columns `0 … 127` of the fused product are the product with the first weight array. -/
theorem lo_mm (x : FVec Ideal S50000x128 .f32) (wf wb : FVec Ideal S128x128 .f32) :
    extractStridedSlice S50000x128 ![0, 0] (Cert.KernelIdeal.Matmul.mm x (catW wf wb)) slices_S50000x256_S50000x128_0_0
      = Host.dotGeneral (F := Ideal) Cert.ReferenceIdeal.dot_S50000x128_S128x128_S50000x128_1_0_0_1_n_n none x wf := by
  funext i
  obtain ⟨r, q, rfl⟩ : ∃ (r : Fin 50000) (q : Fin 128), i = ix2 r q := ⟨i 0, i 1, eq_ix2 i⟩
  rw [slice2_axis1_eq 0, dot_at]
  unfold Cert.KernelIdeal.Matmul.mm
  refine Finset.sum_congr rfl fun k _ => ?_
  refine congrArg (x (ix2 r k) * ·) ?_
  exact catW_left wf wb k _ q (by show 0 + q.val = q.val; omega)

/-- Columns `128 … 255` of the fused product are the product with the second weight array. -/
theorem hi_mm (x : FVec Ideal S50000x128 .f32) (wf wb : FVec Ideal S128x128 .f32) :
    extractStridedSlice S50000x128 ![0, 128] (Cert.KernelIdeal.Matmul.mm x (catW wf wb)) slices_S50000x256_S50000x128_0_128
      = Host.dotGeneral (F := Ideal) Cert.ReferenceIdeal.dot_S50000x128_S128x128_S50000x128_1_0_0_1_n_n none x wb := by
  funext i
  obtain ⟨r, q, rfl⟩ : ∃ (r : Fin 50000) (q : Fin 128), i = ix2 r q := ⟨i 0, i 1, eq_ix2 i⟩
  rw [slice2_axis1_eq 128, dot_at]
  unfold Cert.KernelIdeal.Matmul.mm
  refine Finset.sum_congr rfl fun k _ => ?_
  refine congrArg (x (ix2 r k) * ·) ?_
  exact catW_right wf wb k _ q (by show q.val + 128 = 128 + q.val; omega)

/-- A bias vector repeated over all rows, read at `(r, q)`, is the vector at `q`. -/
theorem biasRows_at (b : FVec Ideal S128 .f32) (r : Fin 50000) (q : Fin 128) :
    Cert.Spec.biasRows (F := Ideal) b (ix2 r q) = b (ix1 q) := by
  unfold Cert.Spec.biasRows
  rw [broadcastInDim_apply _ _ _ (ix2 r q) (ix2 (0 : Fin 1) q) (fun a => match a with | ⟨0, _⟩ => rfl | ⟨1, _⟩ => rfl),
    broadcastInDim_apply _ _ _ (ix2 (0 : Fin 1) q) (ix1 q) (fun a => match a with | ⟨0, _⟩ => rfl)]

/-- THE BRIDGE: the combine step of the two aggregates of the fused product's halves and the two bias blocks is the
    reference's result. -/
theorem kernel_eq_ref (x : FVec Ideal S50000x128 .f32) (e : IVec S2x625000 32) (wf : FVec Ideal S128x128 .f32)
    (bf : FVec Ideal S128 .f32) (wb : FVec Ideal S128x128 .f32) (bb : FVec Ideal S128 .f32) :
    Cert.KernelIdeal.Combine.comb
        (Cert.Spec.aggFwd (F := Ideal)
          (extractStridedSlice S50000x128 ![0, 0] (Cert.KernelIdeal.Matmul.mm x (catW wf wb)) slices_S50000x256_S50000x128_0_0) e)
        (Cert.Spec.aggBwd (F := Ideal)
          (extractStridedSlice S50000x128 ![0, 128] (Cert.KernelIdeal.Matmul.mm x (catW wf wb)) slices_S50000x256_S50000x128_0_128) e)
        (shapeCast S1x128 bf shapeCasts_S128_S1x128) (shapeCast S1x128 bb shapeCasts_S128_S1x128)
      = Cert.Spec.refOut (F := Ideal) x e wf bf wb bb := by
  rw [lo_mm, hi_mm]
  funext i
  obtain ⟨r, q, rfl⟩ : ∃ (r : Fin 50000) (q : Fin 128), i = ix2 r q := ⟨i 0, i 1, eq_ix2 i⟩
  unfold Cert.KernelIdeal.Combine.comb Cert.Spec.refOut
  rw [maximumf_apply, addf_apply, addf_apply, addf_apply, biasRows_at, biasRows_at,
    shapeCast_a_1a_apply, shapeCast_a_1a_apply, add_assoc]
  rfl

end Cert.Bridge

end
-- ==== Proof.lean ====
/-
  A two-direction graph convolution: `relu (A_f (x W_f) + b_f + A_b (x W_b) + b_b)`, where `A_f` is the degree-normalised
  neighbourhood sum along the edges (self-loops added) and `A_b` the same along the reversed edges.

  The kernel computes the two products as ONE product with the weights set side by side (a pallas call over ten row blocks),
  takes the two halves of the result, aggregates each on the host, and adds the biases and takes the maximum with zero in a
  second pallas call over ten row blocks, in the order `((a + b_f) + b) + b_b`. The reference computes the two products
  separately, aggregates each with the same host operations, and adds in the order `(a + b_f) + (b + b_b)`.

  At the extended reals both are the same function of the six arguments:
    * a change of float format is the identity and a product into a zero accumulator is the plain contraction sum, so the
      halves of the fused product are the two separate products (Proof/Bridge.lean `lo_mm`, `hi_mm`);
    * the aggregation is the same composition of host operations on both sides (Proof/Spec.lean `gcnAgg`), applied to equal
      arrays, and is never opened;
    * addition of extended reals is associative, infinities included, so the two orders of the last sums agree
      (Proof/Bridge.lean `kernel_eq_ref`).
  None of this uses that the inputs are finite. What each program's run leaves in its result buffer is read off the run:
  the kernel's from the fold of buffer contents through its eight segments (Proof/KernelRun.lean, Proof/KernelValue.lean,
  with the two calls' outputs in Proof/Matmul.lean and Proof/Combine.lean and the host operations between them in
  Proof/HostFwd.lean and Proof/HostBwd.lean), the reference's from its operations' composed term (Proof/RefRunP.lean,
  Proof/RefValue.lean). The kernel's idealization rewrote no operation, so that conjunct is trivial.
-/
import proofs.«137674_j90520730730511_1_alg».proof.Defs
import proofs.«137674_j90520730730511_1_alg».proof.Proof.Gen.Kernel
import proofs.«137674_j90520730730511_1_alg».proof.Proof.Gen.Kernel.Frame
import proofs.«137674_j90520730730511_1_alg».proof.Proof.Gen.KernelIdeal
import proofs.«137674_j90520730730511_1_alg».proof.Proof.Gen.KernelIdeal.Frame
import proofs.«137674_j90520730730511_1_alg».proof.Proof.Gen.ReferenceIdeal
import proofs.«137674_j90520730730511_1_alg».proof.Proof.Gen.Pre_finite_inputs
import proofs.«137674_j90520730730511_1_alg».proof.Proof.KernelValue
import proofs.«137674_j90520730730511_1_alg».proof.Proof.RefValue
import proofs.«137674_j90520730730511_1_alg».proof.Proof.Bridge

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- From memories that agree on the arguments both programs end with the same result array: the kernel's function of the
    arguments, which is the reference's. -/
theorem algebraic : Cert.algebraic_KernelIdeal_ReferenceIdeal := by
  intro m ρ m' ρ' _ hagree
  refine ⟨fun c => Cert.KernelIdeal.KValue.kerOut m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5⟩ := hagree c
  rw [a0, a1, a2, a3, a4, a5]
  unfold Cert.KernelIdeal.KValue.kerOut
  exact (Cert.Bridge.kernel_eq_ref _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
